-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2x256 : Shape := ⟨3, ![1024, 2, 256]⟩
abbrev S512x128 : Shape := ⟨2, ![512, 128]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x2x256 : S_.BroadcastsInDim S1024x2x256 (![] : Fin 0 → Fin S1024x2x256.rank)
  reducesTo_S1024x2x256_S_d0_1_2 : S1024x2x256.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x64 .f32) (main_arg5 : FVec F S64 .f32) (main_arg6 : FVec F S64x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S1024x2x256 .f32) (main_arg1 : FVec F S512x128 .f32) (main_arg2 : FVec F S512x128 .f32) (main_arg3 : FVec F S256 .f32) (main_arg4 : FVec F S256x64 .f32) (main_arg5 : FVec F S64 .f32) (main_arg6 : FVec F S64x1 .f32) (main_arg7 : FVec F S1 .f32) : IVec S_ 1 :=
  let main_v0 : FVec F S1024x2x256 .f32 := Host.absf main_arg0
  let main_cst : FVec F S_ .f32 := constant S_ .f32 0x7F800000#32
  let main_v1 : FVec F S1024x2x256 .f32 := broadcastInDim S1024x2x256 ![] bcast_S_S1024x2x256 main_cst
  let main_v2 : IVec S1024x2x256 1 := cmpf .olt main_v0 main_v1
  let main_c : IVec S_ 1 := constantI S_ 1 1#1
  let main_v3 : IVec S_ 1 := (fun x v => Host.reduce IntOp.andi x v reducesTo_S1024x2x256_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S1024x2x256 : Shape := ⟨3, ![1024, 2, 256]⟩
abbrev S512x128 : Shape := ⟨2, ![512, 128]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1024x512 : Shape := ⟨2, ![1024, 512]⟩
abbrev S1024x128 : Shape := ⟨2, ![1024, 128]⟩
abbrev S128 : Shape := ⟨1, ![128]⟩
abbrev S1x128 : Shape := ⟨2, ![1, 128]⟩
abbrev S128x64 : Shape := ⟨2, ![128, 64]⟩
abbrev S1024x64 : Shape := ⟨2, ![1024, 64]⟩
abbrev S1x64 : Shape := ⟨2, ![1, 64]⟩
abbrev S1x1 : Shape := ⟨2, ![1, 1]⟩
abbrev S1024x1024 : Shape := ⟨2, ![1024, 1024]⟩
abbrev S256x128 : Shape := ⟨2, ![256, 128]⟩
abbrev S256x1x64 : Shape := ⟨3, ![256, 1, 64]⟩
abbrev S1x128x64 : Shape := ⟨3, ![1, 128, 64]⟩
abbrev S256x128x64 : Shape := ⟨3, ![256, 128, 64]⟩
abbrev S1x1x64 : Shape := ⟨3, ![1, 1, 64]⟩

abbrev nBuf : Space → Nat
  | .hbm => 32
  | .vmem => 8
  | .smem => 0
  | _ => 0

abbrev bufTy : (tb : Table) → Fin (tcTables nBuf tb) → BufTy
  | .hbm, ⟨0, _⟩ => ⟨S1024x2x256, .f32⟩
  | .hbm, ⟨1, _⟩ => ⟨S512x128, .f32⟩
  | .hbm, ⟨2, _⟩ => ⟨S512x128, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S128, .f32⟩
  | .hbm, ⟨12, _⟩ => ⟨S1x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S128x64, .f32⟩
  | .hbm, ⟨17, _⟩ => ⟨S1024x64, .f32⟩
  | .hbm, ⟨18, _⟩ => ⟨S128, .f32⟩
  | .hbm, ⟨19, _⟩ => ⟨S1x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S128x64, .f32⟩
  | .hbm, ⟨24, _⟩ => ⟨S1024x64, .f32⟩
  | .hbm, ⟨25, _⟩ => ⟨S1x64, .f32⟩
  | .hbm, ⟨26, _⟩ => ⟨S1024x64, .f32⟩
  | .hbm, ⟨27, _⟩ => ⟨S1024x64, .f32⟩
  | .hbm, ⟨28, _⟩ => ⟨S64, .f32⟩
  | .hbm, ⟨29, _⟩ => ⟨S1x64, .f32⟩
  | .hbm, ⟨30, _⟩ => ⟨S1x1, .f32⟩
  | .hbm, ⟨31, _⟩ => ⟨S1024x1024, .f32⟩
  | .local _ .vmem, ⟨0, _⟩ => ⟨S256x64, .f32⟩
  | .local _ .vmem, ⟨1, _⟩ => ⟨S256x64, .f32⟩
  | .local _ .vmem, ⟨2, _⟩ => ⟨S128x64, .f32⟩
  | .local _ .vmem, ⟨3, _⟩ => ⟨S128x64, .f32⟩
  | .local _ .vmem, ⟨4, _⟩ => ⟨S1x64, .f32⟩
  | .local _ .vmem, ⟨5, _⟩ => ⟨S1x1, .f32⟩
  | .local _ .vmem, ⟨6, _⟩ => ⟨S256x128, .f32⟩
  | .local _ .vmem, ⟨7, _⟩ => ⟨S256x128, .f32⟩
  | _, _ => ⟨S1024x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024x2x256_S1024x512 : S1024x2x256.ShapeCasts S1024x512
  slices_S256_S128_0 : S256.Slices ![0] S128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  slices_S256x64_S128x64_0_0 : S256x64.Slices ![0, 0] S128x64
  slices_S256_S128_128 : S256.Slices ![128] S128
  slices_S256x64_S128x64_128_0 : S256x64.Slices ![128, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  shapeCasts_S64x1_S64 : S64x1.ShapeCasts S64
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  shapeCasts_S64_S1x1x64 : S64.ShapeCasts S1x1x64
  broadcasts_S1x1x64_S256x128x64 : S1x1x64.Broadcasts S256x128x64
  reduces_S256x128x64_S256x128 : S256x128x64.Reduces [2] S256x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x128_S256x128_0_0 : ∀ a, (![0, 0] : Fin 2 → Nat) a + S256x128.size a ≤ S256x128.size a
  h_S256x128 : 0 < S256x128.numel
  dot_S1024x512_S512x128_S1024x128_1_0_0_1_n_n_wf : DotDims.WF S1024x512 S512x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S1024x64.size a
  hwx0_0 : ∀ i : grid0.Coords, EltTy.bits .f32 = 32 ∨ (Rect.block (s := S1024x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S1024x1024.size a
  hwx0_4 : ∀ i : grid0.Coords, EltTy.bits .f32 = 32 ∨ (Rect.block (s := S1024x1024) S256x128.size (cc0_transform_4 i) (hinb0_4 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v19) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x2x256 : Shape := ⟨3, ![1024, 2, 256]⟩
abbrev S512x128 : Shape := ⟨2, ![512, 128]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1024x512 : Shape := ⟨2, ![1024, 512]⟩
abbrev S1024x128 : Shape := ⟨2, ![1024, 128]⟩
abbrev S128 : Shape := ⟨1, ![128]⟩
abbrev S1x128 : Shape := ⟨2, ![1, 128]⟩
abbrev S128x64 : Shape := ⟨2, ![128, 64]⟩
abbrev S1024x64 : Shape := ⟨2, ![1024, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1x1x64 : Shape := ⟨3, ![1, 1, 64]⟩
abbrev S1024x1024x1 : Shape := ⟨3, ![1024, 1024, 1]⟩
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2x256, .f32⟩
  | .hbm, ⟨1, _⟩ => ⟨S512x128, .f32⟩
  | .hbm, ⟨2, _⟩ => ⟨S512x128, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S128, .f32⟩
  | .hbm, ⟨12, _⟩ => ⟨S1x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S128x64, .f32⟩
  | .hbm, ⟨17, _⟩ => ⟨S1024x64, .f32⟩
  | .hbm, ⟨18, _⟩ => ⟨S128, .f32⟩
  | .hbm, ⟨19, _⟩ => ⟨S1x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S128x64, .f32⟩
  | .hbm, ⟨24, _⟩ => ⟨S1024x64, .f32⟩
  | .hbm, ⟨25, _⟩ => ⟨S1024x1x64, .f32⟩
  | .hbm, ⟨26, _⟩ => ⟨S1x1024x64, .f32⟩
  | .hbm, ⟨27, _⟩ => ⟨S1024x1024x64, .f32⟩
  | .hbm, ⟨28, _⟩ => ⟨S1024x1024x64, .f32⟩
  | .hbm, ⟨29, _⟩ => ⟨S1024x1024x64, .f32⟩
  | .hbm, ⟨30, _⟩ => ⟨S1x1x64, .f32⟩
  | .hbm, ⟨31, _⟩ => ⟨S1024x1024x64, .f32⟩
  | .hbm, ⟨32, _⟩ => ⟨S1024x1024x64, .f32⟩
  | .hbm, ⟨33, _⟩ => ⟨S1024x1024x64, .f32⟩
  | .hbm, ⟨34, _⟩ => ⟨S1024x1024x1, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S1024x2x256_S1024x512 : S1024x2x256.ShapeCasts S1024x512
  slices_S256_S128_0 : S256.Slices ![0] S128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  slices_S256x64_S128x64_0_0 : S256x64.Slices ![0, 0] S128x64
  slices_S256_S128_128 : S256.Slices ![128] S128
  slices_S256x64_S128x64_128_0 : S256x64.Slices ![128, 0] S128x64
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  shapeCasts_S1024x1024x1_S1024x1024 : S1024x1024x1.ShapeCasts S1024x1024
  shapeCasts_S1_S_ : S1.ShapeCasts S_
  bcast_S_S1024x1024 : S_.BroadcastsInDim S1024x1024 (![] : Fin 0 → Fin S1024x1024.rank)
  dot_S1024x512_S512x128_S1024x128_1_0_0_1_n_n_wf : DotDims.WF S1024x512 S512x128 S1024x128 [1] [0] [0] [1] [] []
  dot_S1024x128_S128x64_S1024x64_1_0_0_1_n_n_wf : DotDims.WF S1024x128 S128x64 S1024x64 [1] [0] [0] [1] [] []
  dot_S1024x1024x64_S64x1_S1024x1024x1_2_0_01_1_n_n_wf : DotDims.WF S1024x1024x64 S64x1 S1024x1024x1 [2] [0] [0, 1] [1] [] []

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024x64_S64x1_S1024x1024x1_2_0_01_1_n_n : DotDims S1024x1024x64 S64x1 S1024x1024x1 where
  lhsContracting := [2]
  rhsContracting := [0]
  lhsNonContracting := [0, 1]
  rhsNonContracting := [1]
  lhsBatch := []
  rhsBatch := []
  wf := dot_S1024x1024x64_S64x1_S1024x1024x1_2_0_01_1_n_n_wf

class Facts : Prop extends Facts₀ where

variable [Facts]
-- ==== Proof.LibRank3Layout.lean ====
/-
  Rank-3 layout operations read at an index, and a lane sum over the last axis of a rank-3 array.

  A pairwise kernel builds an [a, b, c] array out of an [a, c] array (one row per first coordinate), a [b, c] array (one
  row per second coordinate) and a [c] vector (the same for every pair) by inserting unit axes with a shape cast and
  broadcasting along them. Each lemma below reads one such operation at an index written by coordinates
  (`ix2`, `ix3`); the last two read a sum over the last axis of a rank-3 array at a pair `(i, j)` as a sum over the
  third coordinate. All are stated for arbitrary extents.
-/
import Idealize.ShloMosaic.Lib.Pipeline.Value
import Idealize.ShloMosaic.Lib.ValueIdx
import Idealize.ShloMosaic.Lib.ValueLayout
import Idealize.ShloMosaic.PureOps.Ideal.Laws

noncomputable section

namespace Rank3Layout

open Idealize.ShloMosaic Idealize.ShloMosaic.ValueIdx

variable {α : Type}

/-- An `[a, c]` array cast to `[a, 1, c]` reads, at `(i, u, k)`, the operand at `(i, k)`: the inserted middle axis has
    one coordinate, so both indices have the row-major position `i * c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv, Nat.zero_mul, Nat.zero_add])

/-- An `[a, 1, c]` array broadcast to `[a, b, c]` reads, at `(i, j, k)`, the operand at `(i, 0, k)`: the second
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: the first
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: only the last
    coordinate is kept. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- Dropping the last axis of `[a, b, c]`: the source index over the pair `(i, j)` with last coordinate `k` is
    `(i, j, k)`. -/
theorem lift_last_eq {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- On the extended reals a `vector.multi_reduction <add>` over the LAST axis of an `[a, b, c]` array, from the neutral
    accumulator, is at the pair `(i, j)` the sum over `k` of the source at `(i, j, k)`. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_eq h i j k))

end Rank3Layout

end
-- ==== Proof.KernelBody.lean ====
/-
  The kernel body's stored value, read at one pair of its tile.

  At a grid point the body holds a tile of 256 head rows `x0`, a tile of 128 modifier rows `x1`, the output row `x2`
  ([1, 64]) and the output bias `x3` ([1, 1]). It lays the two tiles out as [256, 1, 64] and [1, 128, 64], broadcasts
  both to [256, 128, 64], adds, takes tanh, multiplies by the output row broadcast from [1, 1, 64], sums the last axis
  and adds the bias. Read at the pair (p, q) of the tile, on the extended reals, that is

      ( Σ_d tanh( x0[p, d] + x1[q, d] ) · x2[0, d] ) + x3[0, 0].
-/
import proofs.«166955_j88201448391414_1_alg».proof.Proof.Gen.KernelIdeal.Skeleton
import proofs.«166955_j88201448391414_1_alg».proof.Proof.LibRank3Layout

noncomputable section

namespace Cert.KernelIdeal.Body

open Cert.KernelIdeal Cert.KernelIdeal.Gen Idealize.ShloMosaic Idealize.ShloMosaic.ValueIdx Rank3Layout

/-- The stored tile at the pair `(p, q)`: the sum over the 64 features of `tanh (x0[p, d] + x1[q, d]) · x2[0, d]`, plus
    the bias `x3[0, 0]`. Each layout step is read by its index lemma; the lane sum from the zero accumulator is the
    plain sum. -/
theorem pay_apply (x0 : FVec Ideal S256x64 .f32) (x1 : FVec Ideal S128x64 .f32) (x2 : FVec Ideal S1x64 .f32)
    (x3 : FVec Ideal S1x1 .f32) (p : Fin 256) (q : Fin 128) :
    k0_pay1 (F := Ideal) x0 x1 x2 x3 (ix2 p q)
      = (∑ d : Fin 64, Ideal.tanh (x0 (ix2 p d) + x1 (ix2 q d)) * x2 (ix2 (0 : Fin 1) d))
          + x3 (ix2 (0 : Fin 1) (0 : Fin 1)) := by
  unfold k0_pay1
  dsimp only
  refine congrArg₂ (· + ·) ?_ ?_
  · refine (multiReduction_add_last_apply _ _ _ _ _ p q).trans (Finset.sum_congr rfl fun d _ => ?_)
    refine congrArg₂ (fun u v => Ideal.tanh u * v) (congrArg₂ (· + ·) ?_ ?_) ?_
    · refine (broadcastTo_a1c_abc_apply _ _ p q d).trans ?_
      refine (shapeCast_ac_a1c_apply _ _ p 0 d).trans ?_
      rw [shapeCast_self]
    · refine (broadcastTo_1bc_abc_apply _ _ p q d).trans ?_
      refine (shapeCast_ab_1ab_apply _ _ 0 q d).trans ?_
      rw [shapeCast_self]
    · refine (broadcastTo_11c_abc_apply _ _ p q d).trans ?_
      refine (shapeCast_c_11c_apply _ _ 0 0 d).trans ?_
      exact shapeCast_1a_a_apply _ _ d
  · exact congrArg x3 (funext fun a => by match a with | ⟨0, _⟩ => rfl | ⟨1, _⟩ => rfl)

end Cert.KernelIdeal.Body

end
-- ==== Proof.KernelEntry.lean ====
/-
  What the kernel's four input windows hold when the region is entered.

  Before the pallas_call the program computes, on the host, one feature row per node and side,

      feat(x, Wf, cb, Wh) = tanh( reshape(x) · Wf + cb ) · Wh        ([1024, 64]),

  the head features from (W_foh, cat_bias[:128], W_hid2[:128]) and the modifier features from
  (W_fom, cat_bias[128:], W_hid2[128:]). Window 0 is the head features with `hid2_bias` added to every row, window 1 the
  modifier features, window 2 the output column `W_out` laid out as a [1, 64] row, window 3 the output bias as [1, 1].
  The score depends on the two feature arrays (`headFeat`, `modFeat`) only through their entries, whatever those are.
-/
import proofs.«166955_j88201448391414_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- One side's node features: `tanh (reshape(x) · Wf + cb) · Wh`, with `cb` broadcast over the 1024 rows. -/
def nodeFeat (x : FVec F S1024x2x256 .f32) (wf : FVec F S512x128 .f32) (cb : FVec F S128 .f32) (wh : FVec F S128x64 .f32) :
    FVec F S1024x64 .f32 :=
  Host.dotGeneral dot_S1024x128_S128x64_S1024x64_1_0_0_1_n_n none
    (Host.tanh (addf
      (Host.dotGeneral dot_S1024x512_S512x128_S1024x128_1_0_0_1_n_n none (shapeCast _ x Facts₀.shapeCasts_S1024x2x256_S1024x512) wf)
      (broadcastInDim S1024x128 ![0, 1] Facts₀.bcast_S1x128_S1024x128_0_1 (broadcastInDim S1x128 ![1] Facts₀.bcast_S128_S1x128_1 cb))))
    wh

variable (m : (ℓ : Loc nD τ sig) → Buf (Elt F) ℓ)

/-- The head features of the launch memory: from `W_foh`, the first half of `cat_bias`, the top half of `W_hid2`. -/
def headFeat (c : Dev nD) : FVec F S1024x64 .f32 :=
  nodeFeat (m ((c : Thread nD τ).loc main_arg0)) (m ((c : Thread nD τ).loc main_arg1))
    (extractStridedSlice S128 ![0] (m ((c : Thread nD τ).loc main_arg3)) Facts₀.slices_S256_S128_0)
    (extractStridedSlice S128x64 ![0, 0] (m ((c : Thread nD τ).loc main_arg4)) Facts₀.slices_S256x64_S128x64_0_0)

/-- The modifier features: from `W_fom`, the second half of `cat_bias`, the bottom half of `W_hid2`. -/
def modFeat (c : Dev nD) : FVec F S1024x64 .f32 :=
  nodeFeat (m ((c : Thread nD τ).loc main_arg0)) (m ((c : Thread nD τ).loc main_arg2))
    (extractStridedSlice S128 ![128] (m ((c : Thread nD τ).loc main_arg3)) Facts₀.slices_S256_S128_128)
    (extractStridedSlice S128x64 ![128, 0] (m ((c : Thread nD τ).loc main_arg4)) Facts₀.slices_S256x64_S128x64_128_0)

/-- Window 0's array: the head features plus `hid2_bias` broadcast over the rows. -/
theorem entry_head (c : Dev nD) : (V m c main_v19 : S1024x64.Idx → Elt F .f32)
    = addf (headFeat m c) (broadcastInDim S1024x64 ![0, 1] Facts₀.bcast_S1x64_S1024x64_0_1
        (broadcastInDim S1x64 ![1] Facts₀.bcast_S64_S1x64_1 (m ((c : Thread nD τ).loc main_arg5)))) := by
  dsimp only [Gen.V, Gen.hostOps0]; after_results; rfl

/-- Window 1's array: the modifier features. -/
theorem entry_mod (c : Dev nD) : (V m c main_v16 : S1024x64.Idx → Elt F .f32) = modFeat m c := by
  dsimp only [Gen.V, Gen.hostOps0]; after_results; rfl

/-- Window 2's array: `W_out` ([64, 1]) flattened to [64] and laid out as one [1, 64] row. -/
theorem entry_wout (c : Dev nD) : (V m c main_v21 : S1x64.Idx → Elt F .f32)
    = broadcastInDim S1x64 ![1] Facts₀.bcast_S64_S1x64_1 (shapeCast S64 (m ((c : Thread nD τ).loc main_arg6)) Facts₀.shapeCasts_S64x1_S64) := by
  dsimp only [Gen.V, Gen.hostOps0]; after_results; rfl

/-- Window 3's array: `out_bias` ([1]) as [1, 1]. -/
theorem entry_obias (c : Dev nD) : (V m c main_v22 : S1x1.Idx → Elt F .f32)
    = shapeCast S1x1 (m ((c : Thread nD τ).loc main_arg7)) Facts₀.shapeCasts_S1_S1x1 := by
  dsimp only [Gen.V, Gen.hostOps0]; after_results; rfl

/-! ## The four arrays read at an index, on the extended reals -/

section AtIndex

variable (mi : (ℓ : Loc nD τ sig) → Buf (Elt Ideal) ℓ)

/-- Window 0's array at row `g`, feature `d`: the head feature plus the hidden-layer bias of that feature. -/
theorem head_apply (c : Dev nD) (k : S1024x64.Idx) (g : Fin 1024) (d : Fin 64) (hk0 : (k 0).val = g.val) (hk1 : (k 1).val = d.val) :
    (V mi c main_v19 : S1024x64.Idx → EReal) k
      = headFeat mi c (ix2 g d) + (mi ((c : Thread nD τ).loc main_arg5) : S64.Idx → EReal) (ix1 d) := by
  have hk : k = ix2 g d := funext fun a => Fin.ext (by
    match a with
    | ⟨0, _⟩ => exact hk0
    | ⟨1, _⟩ => exact hk1)
  rw [entry_head, hk]
  refine congrArg (headFeat mi c (ix2 g d) + ·) ?_
  refine (broadcastInDim_apply _ _ _ (ix2 g d) (ix2 (0 : Fin 1) d) fun a => ?_).trans
    (broadcastInDim_apply _ _ _ (ix2 (0 : Fin 1) d) (ix1 d) fun a => ?_)
  · match a with
    | ⟨0, _⟩ => rfl
    | ⟨1, _⟩ => rfl
  · match a with
    | ⟨0, _⟩ => rfl

/-- Window 1's array at row `g`, feature `d`: the modifier feature. -/
theorem mod_apply (c : Dev nD) (k : S1024x64.Idx) (g : Fin 1024) (d : Fin 64) (hk0 : (k 0).val = g.val) (hk1 : (k 1).val = d.val) :
    (V mi c main_v16 : S1024x64.Idx → EReal) k = modFeat mi c (ix2 g d) := by
  have hk : k = ix2 g d := funext fun a => Fin.ext (by
    match a with
    | ⟨0, _⟩ => exact hk0
    | ⟨1, _⟩ => exact hk1)
  rw [entry_mod, hk]

/-- Window 2's one row at feature `d`: the output column's entry `(d, 0)`. -/
theorem wout_apply (c : Dev nD) (k : S1x64.Idx) (d : Fin 64) (hk1 : (k 1).val = d.val) :
    (V mi c main_v21 : S1x64.Idx → EReal) k = (mi ((c : Thread nD τ).loc main_arg6) : S64x1.Idx → EReal) (ix2 d (0 : Fin 1)) := by
  rw [entry_wout]
  refine (broadcastInDim_apply _ _ _ k (ix1 d) fun a => ?_).trans (shapeCast_apply _ _ (ix1 d) (ix2 d (0 : Fin 1)) ?_)
  · match a with
    | ⟨0, _⟩ => exact hk1.symm
  · rw [Shape.rowMajor_val_two, Shape.rowMajor_val_one]
    show d.val * 1 + 0 = d.val
    omega

/-- Window 3's one element: the output bias. -/
theorem obias_apply (c : Dev nD) (k : S1x1.Idx) :
    (V mi c main_v22 : S1x1.Idx → EReal) k = (mi ((c : Thread nD τ).loc main_arg7) : S1.Idx → EReal) (ix1 (0 : Fin 1)) := by
  rw [entry_obias]
  refine shapeCast_apply _ _ k (ix1 (0 : Fin 1)) ?_
  rw [Shape.rowMajor_val_one, Shape.rowMajor_val_two]
  have h0 : (k 0).val < 1 := (k 0).isLt
  have h1 : (k 1).val < 1 := (k 1).isLt
  show (0 : ℕ) = (k 0).val * 1 + (k 1).val
  omega

end AtIndex

end Cert.KernelIdeal.Entry

end
-- ==== Proof.PairScore.lean ====
/-
  The pairwise score, as one function of five arrays.

  For n = 1024 nodes with 64 hidden features each: `th` holds a "head" feature row per node, `tm` a "modifier" feature row
  per node, `b` a bias over the 64 features, `w` a [64, 1] output column and `ob` a one-element output bias. The score of
  the ordered pair (p, q) is

      ( Σ_d tanh( th[p, d] + b[d] + tm[q, d] ) · w[d, 0] ) + ob[0]

  on the extended reals. Nothing here depends on a program: it is the statement both programs are compared with.
-/
import Idealize.ShloMosaic.PureOps.Ideal
import Idealize.ShloMosaic.Lib.ValueIdx

noncomputable section

namespace PairScore

open Idealize.ShloMosaic Idealize.ShloMosaic.ValueIdx

/-- The score of the pair `(p, q)`: the hidden layer `tanh (th[p, ·] + b + tm[q, ·])` against the output column, plus the
    output bias. The bias is added to the head row first, then the modifier row. -/
def scoreAt (th tm : FVec Ideal ⟨2, ![1024, 64]⟩ .f32) (b : FVec Ideal ⟨1, ![64]⟩ .f32)
    (w : FVec Ideal ⟨2, ![64, 1]⟩ .f32) (ob : FVec Ideal ⟨1, ![1]⟩ .f32) (p q : Fin 1024) : EReal :=
  (∑ d : Fin 64, Ideal.tanh (th (ix2 p d) + b (ix1 d) + tm (ix2 q d)) * w (ix2 d (0 : Fin 1))) + ob (ix1 (0 : Fin 1))

/-- All pairs' scores as one [1024, 1024] array. -/
def score (th tm : FVec Ideal ⟨2, ![1024, 64]⟩ .f32) (b : FVec Ideal ⟨1, ![64]⟩ .f32)
    (w : FVec Ideal ⟨2, ![64, 1]⟩ .f32) (ob : FVec Ideal ⟨1, ![1]⟩ .f32) : FVec Ideal ⟨2, ![1024, 1024]⟩ .f32 :=
  fun i => scoreAt th tm b w ob (i 0) (i 1)

theorem score_ix2 (th tm : FVec Ideal ⟨2, ![1024, 64]⟩ .f32) (b : FVec Ideal ⟨1, ![64]⟩ .f32)
    (w : FVec Ideal ⟨2, ![64, 1]⟩ .f32) (ob : FVec Ideal ⟨1, ![1]⟩ .f32) (p q : Fin 1024) :
    score th tm b w ob (ix2 p q) = scoreAt th tm b w ob p q := rfl

/-- The same score with the bias added last, after the head and modifier rows: addition of extended reals is
    commutative and associative (also at the infinities), so the hidden layer's argument is the same number. -/
theorem scoreAt_bias_last (th tm : FVec Ideal ⟨2, ![1024, 64]⟩ .f32) (b : FVec Ideal ⟨1, ![64]⟩ .f32)
    (w : FVec Ideal ⟨2, ![64, 1]⟩ .f32) (ob : FVec Ideal ⟨1, ![1]⟩ .f32) (p q : Fin 1024) :
    (∑ d : Fin 64, Ideal.tanh (th (ix2 p d) + tm (ix2 q d) + b (ix1 d)) * w (ix2 d (0 : Fin 1))) + ob (ix1 (0 : Fin 1))
      = scoreAt th tm b w ob p q := by
  unfold scoreAt
  refine congrArg (· + ob (ix1 (0 : Fin 1))) (Finset.sum_congr rfl fun d _ => ?_)
  rw [add_right_comm]

end PairScore

end
-- ==== Proof.KernelValue.lean ====
/-
  The kernel's result array is the pairwise score of the head and modifier features.

  The grid has 4 × 8 points; point (I, J) holds head rows 256·I … 256·I + 255 (window 0), modifier rows
  128·J … 128·J + 127 (window 1), the whole output row and output bias (windows 2 and 3), and writes the
  [256, 128] tile (I, J) of the [1024, 1024] result (window 4). The tile's entry (p, q) is the score of the pair
  (256·I + p, 128·J + q): the body's stored value read at (p, q), with each input tile's entry read off the array the
  region found. The 32 tiles cover the result, so the array ends holding the score of every pair.
-/
import proofs.«166955_j88201448391414_1_alg».proof.Proof.Gen.KernelIdeal.Value
import proofs.«166955_j88201448391414_1_alg».proof.Proof.KernelBody
import proofs.«166955_j88201448391414_1_alg».proof.Proof.KernelEntry
import proofs.«166955_j88201448391414_1_alg».proof.Proof.PairScore

noncomputable section

namespace Cert.KernelIdeal.PairValue

open Cert.KernelIdeal Cert.KernelIdeal.Gen Cert.KernelIdeal.Entry Cert.KernelIdeal.Body
open Idealize.ShloMosaic Idealize.ShloMosaic.TcCoe Idealize.SL.Sem Idealize.ShloMosaic.ValueIdx PairScore
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The score of every pair, from the launch memory: head and modifier features, `hid2_bias`, `W_out`, `out_bias`. -/
def result (c : Dev nD) : FVec Ideal S1024x1024 .f32 :=
  score (headFeat m c) (modFeat m c) (m ((c : Thread nD τ).loc main_arg5)) (m ((c : Thread nD τ).loc main_arg6))
    (m ((c : Thread nD τ).loc main_arg7))

/-- One tile entry is one pair's score: if the head tile's row `p` is row `gp` of (head features + bias), the modifier
    tile's row `q` is row `gq` of the modifier features, and the output row and bias are those of the score, then the
    stored value at `(p, q)` is the score of `(gp, gq)`. -/
theorem tile_eq (x0 : FVec Ideal S256x64 .f32) (x1 : FVec Ideal S128x64 .f32) (x2 : FVec Ideal S1x64 .f32)
    (x3 : FVec Ideal S1x1 .f32) (th tm : FVec Ideal S1024x64 .f32) (b : FVec Ideal S64 .f32) (w : FVec Ideal S64x1 .f32)
    (ob : FVec Ideal S1 .f32) (p : Fin 256) (q : Fin 128) (gp gq : Fin 1024)
    (h0 : ∀ d : Fin 64, x0 (ix2 p d) = th (ix2 gp d) + b (ix1 d))
    (h1 : ∀ d : Fin 64, x1 (ix2 q d) = tm (ix2 gq d))
    (h2 : ∀ d : Fin 64, x2 (ix2 (0 : Fin 1) d) = w (ix2 d (0 : Fin 1)))
    (h3 : x3 (ix2 (0 : Fin 1) (0 : Fin 1)) = ob (ix1 (0 : Fin 1))) :
    k0_pay1 (F := Ideal) x0 x1 x2 x3 (ix2 p q) = scoreAt th tm b w ob gp gq := by
  rw [pay_apply, h3]
  unfold scoreAt
  refine congrArg (· + ob (ix1 (0 : Fin 1))) (Finset.sum_congr rfl fun d _ => ?_)
  rw [h0, h1, h2]

/-- The index maps over the 32 grid points: the head window follows the output's first block index, the modifier
    window its second, the output row and bias stay at block 0, and the output's block indices range over 4 × 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 3 ∧ win0_4.index t (1 : Fin 2) ≤ 7 :=
  (by decide +kernel : ∀ t : Fin grid0.N, _)

/-- Every tile of the 4 × 8 tiling is some point's. -/
theorem idx_onto : ∀ (a : Fin 4) (b : Fin 8), ∃ t : Fin cfg0.N, win0_4.index t = ![a.val, b.val] :=
  (by decide +kernel : ∀ (a : Fin 4) (b : Fin 8), ∃ t : Fin grid0.N, win0_4.index t = ![a.val, b.val])

/-- What point `t` writes back is tile `t` of the score array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x64) hz, View.ld_unit_zero (S := S128x64) hz, View.ld_unit_zero (S := S1x64) hz,
    View.ld_unit_zero (S := S1x1) hz]
  obtain ⟨e00, e01, e10, e11, e20, e21, e30, e31, b0, b1⟩ := idx_facts t
  funext j
  obtain ⟨p, q, rfl⟩ : ∃ (p : Fin 256) (q : Fin 128), j = ix2 p q := ⟨j 0, j 1, eq_ix2 j⟩
  have hp := p.isLt
  have hq := q.isLt
  obtain ⟨gp, hgp⟩ : ∃ g : Fin 1024, g.val = win0_4.index t (0 : Fin 2) * 256 + p.val := ⟨⟨_, by omega⟩, rfl⟩
  obtain ⟨gq, hgq⟩ : ∃ g : Fin 1024, g.val = win0_4.index t (1 : Fin 2) * 128 + q.val := ⟨⟨_, by omega⟩, rfl⟩
  have hemb : ((cfg0.win 4).blk t).view.emb (ix2 p q) = ix2 gp gq := by
    funext a
    apply Fin.ext
    match a with
    | ⟨0, _⟩ => show win0_4.index t (0 : Fin 2) * 256 + 1 * p.val = gp.val; omega
    | ⟨1, _⟩ => show win0_4.index t (1 : Fin 2) * 128 + 1 * q.val = gq.val; omega
  show k0_pay1 (F := Ideal) (iblk m c 0 t) (iblk m c 1 t) (iblk m c 2 t) (iblk m c 3 t) (ix2 p q)
    = result m c (((cfg0.win 4).blk t).view.emb (ix2 p q))
  rw [hemb]
  show _ = scoreAt (headFeat m c) (modFeat m c) (m ((c : Thread nD τ).loc main_arg5)) (m ((c : Thread nD τ).loc main_arg6))
    (m ((c : Thread nD τ).loc main_arg7)) gp gq
  refine tile_eq _ _ _ _ _ _ _ _ _ p q gp gq (fun d => ?_) (fun d => ?_) (fun d => ?_) ?_
  · show V m c main_v19 (((cfg0.win 0).blk t).view.emb (ix2 p d)) = _
    exact head_apply m c _ gp d
      (by show win0_0.index t (0 : Fin 2) * 256 + 1 * p.val = gp.val; omega)
      (by show win0_0.index t (1 : Fin 2) * 64 + 1 * d.val = d.val; omega)
  · show V m c main_v16 (((cfg0.win 1).blk t).view.emb (ix2 q d)) = _
    exact mod_apply m c _ gq d
      (by show win0_1.index t (0 : Fin 2) * 128 + 1 * q.val = gq.val; omega)
      (by show win0_1.index t (1 : Fin 2) * 64 + 1 * d.val = d.val; omega)
  · show V m c main_v21 (((cfg0.win 2).blk t).view.emb (ix2 (0 : Fin 1) d)) = _
    exact wout_apply m c _ d (by show win0_2.index t (1 : Fin 2) * 64 + 1 * d.val = d.val; omega)
  · show V m c main_v22 (((cfg0.win 3).blk t).view.emb (ix2 (0 : Fin 1) (0 : Fin 1))) = _
    exact obias_apply m c _

/-- An index of the result is in point `t`'s tile iff each coordinate is in the tile's range on its axis. -/
theorem mem_blk (t : Fin cfg0.N) (i : S1024x1024.Idx) :
    i ∈ ((cfg0.win 4).blk t).view.set ↔ ∀ a : Fin 2, win0_4.index t a * S256x128.size a ≤ (i a).val
      ∧ (i a).val < win0_4.index t a * S256x128.size a + S256x128.size a := by
  show i ∈ ((View.whole main_v23).slice (win0_4.rect t)).set ↔ _
  rw [View.set_slice_whole, Rect.mem_set_unit]
  exact Iff.rfl

/-- The tiles cover the result: the pair `(r, s)` is in tile `(r / 256, s / 128)`. -/
theorem cover (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  obtain ⟨t, ht⟩ := idx_onto ⟨(i 0).val / 256, by omega⟩ ⟨(i 1).val / 128, by omega⟩
  have q0 : win0_4.index t (0 : Fin 2) = (i 0).val / 256 := congrFun ht 0
  have q1 : win0_4.index t (1 : Fin 2) = (i 1).val / 128 := congrFun ht 1
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 128 ≤ (i 1).val ∧ (i 1).val < win0_4.index t (1 : Fin 2) * 128 + 128
    omega

/-- The result array after the run is the score of every pair. -/
theorem final (c : Dev nD) : (dats m 0 c).arrAt 4 cfg0.N = result m c :=
  (dats m 0 c).arrAt_eq_of_cover 4 (result m c) (fun t _ => flushed_eq m c t) cover

/-- Every weakly fair execution of the program ends with the result array at the score of every pair and the eight
    argument arrays unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.PairValue

end
-- ==== Proof.RefScore.lean ====
/-
  The reference's result is the pairwise score of its own two feature arrays.

  The reference forms, for every ordered pair (p, q) and feature d, the number
  `head[p, d] + mod[q, d] + hid2_bias[d]` in a [1024, 1024, 64] array, takes tanh, contracts the last axis against the
  [64, 1] output column, drops the unit axis and adds the output bias. Read at the pair (p, q) that is the score with the
  hidden-layer bias added last; addition of extended reals being commutative and associative, it is the score
  (`PairScore.scoreAt_bias_last`).
-/
import proofs.«166955_j88201448391414_1_alg».proof.Proof.Gen.ReferenceIdeal.Read
import proofs.«166955_j88201448391414_1_alg».proof.Proof.PairScore

noncomputable section

namespace Cert.ReferenceIdeal.RefScore

open Cert.ReferenceIdeal Cert.ReferenceIdeal.Read Idealize.ShloMosaic Idealize.ShloMosaic.ValueIdx PairScore

/-- The one-element bias reshaped to a scalar reads the bias's element. -/
theorem obias_apply (x7 : FVec Ideal S1 .f32) (j : S_.Idx) :
    val_main_v28 (F := Ideal) x7 j = x7 (ix1 (0 : Fin 1)) := by
  unfold val_main_v28
  refine shapeCast_apply x7 _ j (ix1 (0 : Fin 1)) ?_
  rw [Shape.rowMajor_val_one]
  have h := (S_.rowMajor j).isLt
  have hn : S_.numel = 1 := by simp [Shape.numel]
  show (0 : ℕ) = (S_.rowMajor j).val
  omega

/-- The pair `(p, q)` of the [1024, 1024] result comes from the pair `(p, q, 0)` of the [1024, 1024, 1] contraction. -/
theorem idx_pair (p q : Fin 1024) : idx_main_v27 (ix2 p q) = ix3 p q (0 : Fin 1) := by
  funext a
  apply Fin.ext
  have hp := p.isLt
  have hq := q.isLt
  match a with
  | ⟨0, _⟩ => show (p.val * 1024 + q.val) / 1024 = p.val; omega
  | ⟨1, _⟩ => show (p.val * 1024 + q.val) / 1 % 1024 = q.val; omega
  | ⟨2, _⟩ => rfl

/-- The contraction at `(p, q, 0)` pairs the hidden layer at `(p, q, d)` with the output column at `(d, 0)`. -/
theorem lidx_pair (p q : Fin 1024) (d : Fin 64) : lidx_main_v26 (ix3 p q (0 : Fin 1)) d = ix3 p q d := by
  funext a
  match a with
  | ⟨0, _⟩ => rfl
  | ⟨1, _⟩ => rfl
  | ⟨2, _⟩ => rfl

theorem ridx_pair (p q : Fin 1024) (d : Fin 64) : ridx_main_v26 (ix3 p q (0 : Fin 1)) d = ix2 d (0 : Fin 1) := by
  funext a
  match a with
  | ⟨0, _⟩ => rfl
  | ⟨1, _⟩ => rfl

/-- The head features broadcast over the second axis are read at `(p, d)`, -/
theorem head_idx (p q : Fin 1024) (d : Fin 64) : idx_main_v17 (idx_main_v19 (ix3 p q d)) = ix2 p d := by
  funext a
  match a with
  | ⟨0, _⟩ => rfl
  | ⟨1, _⟩ => rfl

/-- the modifier features broadcast over the first axis at `(q, d)`, -/
theorem mod_idx (p q : Fin 1024) (d : Fin 64) : idx_main_v18 (idx_main_v20 (ix3 p q d)) = ix2 q d := by
  funext a
  match a with
  | ⟨0, _⟩ => rfl
  | ⟨1, _⟩ => rfl

/-- and the hidden-layer bias broadcast over both at `d`. -/
theorem bias_idx (p q : Fin 1024) (d : Fin 64) : idx_main_v22 (idx_main_v23 (ix3 p q d)) = ix1 d := by
  funext a
  match a with
  | ⟨0, _⟩ => rfl

/-- The reference's result array is the score of its head and modifier feature arrays, the hidden-layer bias, the
    output column and the output bias. -/
theorem result_eq (x0 : FVec Ideal S1024x2x256 .f32) (x1 x2 : FVec Ideal S512x128 .f32) (x3 : FVec Ideal S256 .f32)
    (x4 : FVec Ideal S256x64 .f32) (x5 : FVec Ideal S64 .f32) (x6 : FVec Ideal S64x1 .f32) (x7 : FVec Ideal S1 .f32) :
    val_main_v30 (F := Ideal) x0 x1 x2 x3 x4 x5 x6 x7
      = score (val_main_v9 (F := Ideal) x0 x1 x3 x4) (val_main_v16 (F := Ideal) x0 x2 x3 x4) x5 x6 x7 := by
  funext i
  obtain ⟨p, q, rfl⟩ : ∃ (p q : Fin 1024), i = ix2 p q := ⟨i 0, i 1, eq_ix2 i⟩
  rw [score_ix2, ← scoreAt_bias_last]
  rw [val_main_v30_apply, val_main_v27_apply, val_main_v29_apply, obias_apply, idx_pair, val_main_v26_apply]
  refine congrArg₂ (· + ·) (Finset.sum_congr rfl fun d _ => ?_) rfl
  rw [lidx_pair, ridx_pair, val_main_v25_apply, val_main_v24_apply, val_main_v21_apply, val_main_v19_apply,
    val_main_v17_apply, val_main_v20_apply, val_main_v18_apply, val_main_v23_apply, val_main_v22_apply,
    head_idx, mod_idx, bias_idx]
  rfl

end Cert.ReferenceIdeal.RefScore

end
-- ==== Proof.lean ====
/-
  The pairwise MLP scorer against its reference, on the extended reals.

  Both programs compute, from the node embeddings `x` ([1024, 2, 256], read as [1024, 512]) and the weights, two feature
  rows per node — head features `tanh (x · W_foh + cat_bias[:128]) · W_hid2[:128]` and modifier features
  `tanh (x · W_fom + cat_bias[128:]) · W_hid2[128:]`, each [1024, 64] — by the same host operations, and then the score of
  every ordered pair of nodes,

      score[p, q] = ( Σ_d tanh( head[p, d] + mod[q, d] + hid2_bias[d] ) · W_out[d, 0] ) + out_bias[0].

  The kernel adds `hid2_bias` to the head features once, on the host, and computes the scores tile by tile on a 4 × 8 grid
  (a lane sum over the 64 features); the reference adds the bias last, in a [1024, 1024, 64] array, and contracts it
  against `W_out`. The two differ only in the order of a three-term sum, and addition of extended reals is commutative
  and associative at the infinities too, so the results agree entry by entry for all inputs. The idealization rewrote
  nothing, so there is nothing to preserve beyond the program's own text.
-/
import proofs.«166955_j88201448391414_1_alg».proof.Defs
import proofs.«166955_j88201448391414_1_alg».proof.Proof.Gen.Kernel
import proofs.«166955_j88201448391414_1_alg».proof.Proof.Gen.Kernel.Skeleton
import proofs.«166955_j88201448391414_1_alg».proof.Proof.Gen.Kernel.Launch
import proofs.«166955_j88201448391414_1_alg».proof.Proof.Gen.Kernel.Points
import proofs.«166955_j88201448391414_1_alg».proof.Proof.Gen.Kernel.Frame
import proofs.«166955_j88201448391414_1_alg».proof.Proof.Gen.KernelIdeal
import proofs.«166955_j88201448391414_1_alg».proof.Proof.Gen.KernelIdeal.Skeleton
import proofs.«166955_j88201448391414_1_alg».proof.Proof.Gen.KernelIdeal.Launch
import proofs.«166955_j88201448391414_1_alg».proof.Proof.Gen.KernelIdeal.Points
import proofs.«166955_j88201448391414_1_alg».proof.Proof.Gen.KernelIdeal.Frame
import proofs.«166955_j88201448391414_1_alg».proof.Proof.Gen.ReferenceIdeal
import proofs.«166955_j88201448391414_1_alg».proof.Proof.Gen.Pre_finite_inputs
import proofs.«166955_j88201448391414_1_alg».proof.Proof.Gen.KernelIdeal.Value
import proofs.«166955_j88201448391414_1_alg».proof.Proof.Gen.ReferenceIdeal.Run
import proofs.«166955_j88201448391414_1_alg».proof.Proof.Gen.ReferenceIdeal.Read
import proofs.«166955_j88201448391414_1_alg».proof.Proof.KernelValue
import proofs.«166955_j88201448391414_1_alg».proof.Proof.RefScore
import Idealize.ShloMosaic.Adequacy
import Idealize.ShloMosaic.Init

noncomputable section

namespace Cert.Proof

open Idealize.ShloMosaic Idealize.SL.Sem

/-! ## The two programs' feature arrays are the same arrays -/

/-- The kernel program's head features are the reference's: the same operations on the same four arguments. -/
theorem head_feat_eq (x0 : FVec Ideal Cert.KernelIdeal.S1024x2x256 .f32) (x1 : FVec Ideal Cert.KernelIdeal.S512x128 .f32)
    (x3 : FVec Ideal Cert.KernelIdeal.S256 .f32) (x4 : FVec Ideal Cert.KernelIdeal.S256x64 .f32) :
    Cert.KernelIdeal.Entry.nodeFeat (F := Ideal) x0 x1
        (extractStridedSlice Cert.KernelIdeal.S128 ![0] x3 Cert.KernelIdeal.Facts₀.slices_S256_S128_0)
        (extractStridedSlice Cert.KernelIdeal.S128x64 ![0, 0] x4 Cert.KernelIdeal.Facts₀.slices_S256x64_S128x64_0_0)
      = Cert.ReferenceIdeal.Read.val_main_v9 (F := Ideal) x0 x1 x3 x4 := rfl

/-- And so are the modifier features. -/
theorem mod_feat_eq (x0 : FVec Ideal Cert.KernelIdeal.S1024x2x256 .f32) (x2 : FVec Ideal Cert.KernelIdeal.S512x128 .f32)
    (x3 : FVec Ideal Cert.KernelIdeal.S256 .f32) (x4 : FVec Ideal Cert.KernelIdeal.S256x64 .f32) :
    Cert.KernelIdeal.Entry.nodeFeat (F := Ideal) x0 x2
        (extractStridedSlice Cert.KernelIdeal.S128 ![128] x3 Cert.KernelIdeal.Facts₀.slices_S256_S128_128)
        (extractStridedSlice Cert.KernelIdeal.S128x64 ![128, 0] x4 Cert.KernelIdeal.Facts₀.slices_S256x64_S128x64_128_0)
      = Cert.ReferenceIdeal.Read.val_main_v16 (F := Ideal) x0 x2 x3 x4 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference is a straight line of host operations: it runs, and its arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the score of every pair: the kernel's tiles cover the score array, and the reference's
    result is the same score with the hidden-layer bias added last. -/
theorem algebraic : Cert.algebraic_KernelIdeal_ReferenceIdeal := by
  intro m ρ m' ρ' _ hagree
  refine ⟨fun c => Cert.KernelIdeal.PairValue.result m c, Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v30_eq, Cert.ReferenceIdeal.RefScore.result_eq, a0, a1, a2, a3, a4, a5, a6, a7,
    ← head_feat_eq, ← mod_feat_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
